-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_keep" .f32 0x40555555#32 ((16777216 / 5033165 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S100000x1 : Shape := ⟨2, ![100000, 1]⟩
abbrev S1600000x1 : Shape := ⟨2, ![1600000, 1]⟩
abbrev S1600000 : Shape := ⟨1, ![1600000]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S100000x1 : S_.BroadcastsInDim S100000x1 (![] : Fin 0 → Fin S100000x1.rank)
  reducesTo_S100000x1_S_d0_1 : S100000x1.ReducesTo [0, 1] S_
  bcast_S_S1600000x1 : S_.BroadcastsInDim S1600000x1 (![] : Fin 0 → Fin S1600000x1.rank)
  reducesTo_S1600000x1_S_d0_1 : S1600000x1.ReducesTo [0, 1] S_

variable [Facts]

def fn {F : FTy → Type} [FloatOps F] (main_arg0 : FVec F S100000x32 .f32) (main_arg1 : FVec F S100000x1 .f32) (main_arg2 : FVec F S1600000x1 .f32) (main_arg3 : IVec S1600000 32) (main_arg4 : IVec S1600000 32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S100000x1 .f32 := Host.absf main_arg1
  let main_cst_0 : FVec F S_ .f32 := constant S_ .f32 0x7F800000#32
  let main_v5 : FVec F S100000x1 .f32 := broadcastInDim S100000x1 ![] bcast_S_S100000x1 main_cst_0
  let main_v6 : IVec S100000x1 1 := cmpf .olt main_v4 main_v5
  let main_c_1 : IVec S_ 1 := constantI S_ 1 1#1
  let main_v7 : IVec S_ 1 := (fun x v => Host.reduce IntOp.andi x v reducesTo_S100000x1_S_d0_1 h_S_) main_v6 main_c_1
  let main_v8 : IVec S_ 1 := andi main_v3 main_v7
  let main_v9 : FVec F S1600000x1 .f32 := Host.absf main_arg2
  let main_cst_2 : FVec F S_ .f32 := constant S_ .f32 0x7F800000#32
  let main_v10 : FVec F S1600000x1 .f32 := broadcastInDim S1600000x1 ![] bcast_S_S1600000x1 main_cst_2
  let main_v11 : IVec S1600000x1 1 := cmpf .olt main_v9 main_v10
  let main_c_3 : IVec S_ 1 := constantI S_ 1 1#1
  let main_v12 : IVec S_ 1 := (fun x v => Host.reduce IntOp.andi x v reducesTo_S1600000x1_S_d0_1 h_S_) main_v11 main_c_3
  let main_v13 : IVec S_ 1 := andi main_v8 main_v12
  main_v13
-- ==== Kernel.lean ====
abbrev S100000x32 : Shape := ⟨2, ![100000, 32]⟩
abbrev S100000x1 : Shape := ⟨2, ![100000, 1]⟩
abbrev S1600000x1 : Shape := ⟨2, ![1600000, 1]⟩
abbrev S1600000 : Shape := ⟨1, ![1600000]⟩
abbrev S_ : Shape := ⟨0, ![]⟩
abbrev S1600000x32 : Shape := ⟨2, ![1600000, 32]⟩
abbrev S6400x32 : Shape := ⟨2, ![6400, 32]⟩
abbrev S6400x1 : Shape := ⟨2, ![6400, 1]⟩
abbrev S2000x32 : Shape := ⟨2, ![2000, 32]⟩
abbrev S2000x1 : Shape := ⟨2, ![2000, 1]⟩

abbrev nBuf : Space → Nat
  | .hbm => 29
  | .vmem => 14
  | .smem => 0
  | _ => 0

abbrev bufTy : (tb : Table) → Fin (tcTables nBuf tb) → BufTy
  | .hbm, ⟨0, _⟩ => ⟨S100000x32, .f32⟩
  | .hbm, ⟨1, _⟩ => ⟨S100000x1, .f32⟩
  | .hbm, ⟨2, _⟩ => ⟨S1600000x1, .f32⟩
  | .hbm, ⟨3, _⟩ => ⟨S1600000, .i32⟩
  | .hbm, ⟨4, _⟩ => ⟨S1600000, .i32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x32, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x1, .f32⟩
  | .hbm, ⟨23, _⟩ => ⟨S1600000x32, .f32⟩
  | .hbm, ⟨24, _⟩ => ⟨S_, .f32⟩
  | .hbm, ⟨25, _⟩ => ⟨S100000x32, .f32⟩
  | .hbm, ⟨26, _⟩ => ⟨S1600000x1, .i32⟩
  | .hbm, ⟨27, _⟩ => ⟨S100000x32, .f32⟩
  | .hbm, ⟨28, _⟩ => ⟨S100000x32, .f32⟩
  | .local _ .vmem, ⟨0, _⟩ => ⟨S6400x32, .f32⟩
  | .local _ .vmem, ⟨1, _⟩ => ⟨S6400x32, .f32⟩
  | .local _ .vmem, ⟨2, _⟩ => ⟨S6400x1, .f32⟩
  | .local _ .vmem, ⟨3, _⟩ => ⟨S6400x1, .f32⟩
  | .local _ .vmem, ⟨4, _⟩ => ⟨S6400x1, .f32⟩
  | .local _ .vmem, ⟨5, _⟩ => ⟨S6400x1, .f32⟩
  | .local _ .vmem, ⟨6, _⟩ => ⟨S6400x32, .f32⟩
  | .local _ .vmem, ⟨7, _⟩ => ⟨S6400x32, .f32⟩
  | .local _ .vmem, ⟨8, _⟩ => ⟨S2000x32, .f32⟩
  | .local _ .vmem, ⟨9, _⟩ => ⟨S2000x32, .f32⟩
  | .local _ .vmem, ⟨10, _⟩ => ⟨S2000x1, .f32⟩
  | .local _ .vmem, ⟨11, _⟩ => ⟨S2000x1, .f32⟩
  | .local _ .vmem, ⟨12, _⟩ => ⟨S2000x32, .f32⟩
  | .local _ .vmem, ⟨13, _⟩ => ⟨S2000x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S6400x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S6400x1_S6400x1_0_0 : ∀ a, (![0, 0] : Fin 2 → Nat) a + S6400x1.size a ≤ S6400x1.size a
  h_S6400x1 : 0 < S6400x1.numel
  natLt_1_32 : 1 < 32
  inb_S6400x32_S6400x32_0_0 : ∀ a, (![0, 0] : Fin 2 → Nat) a + S6400x32.size a ≤ S6400x32.size a
  h_S6400x32 : 0 < S6400x32.numel
  shapeCasts_S6400x32_S6400x32 : S6400x32.ShapeCasts S6400x32
  shapeCasts_S6400x1_S6400x1 : S6400x1.ShapeCasts S6400x1
  broadcasts_S6400x1_S6400x32 : S6400x1.Broadcasts S6400x32
  bcast_S_S100000x32 : S_.BroadcastsInDim S100000x32 (![] : Fin 0 → Fin S100000x32.rank)
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  inb_S2000x1_S2000x1_0_0 : ∀ a, (![0, 0] : Fin 2 → Nat) a + S2000x1.size a ≤ S2000x1.size a
  h_S2000x1 : 0 < S2000x1.numel
  broadcasts_S2000x1_S2000x32 : S2000x1.Broadcasts S2000x32
  gather_S100000x32_S1600000x1_S1600000x32_1_0_n_n_0_1_132_wf : GatherDims.WF S100000x32 S1600000x1 S1600000x32 [1] [0] [] [0] [] 1 ![1, 32]
  gather_S100000x1_S1600000x1_S1600000x1_1_0_n_n_0_1_11_wf : GatherDims.WF S100000x1 S1600000x1 S1600000x1 [1] [0] [] [0] [] 1 ![1, 1]
  scatter_S100000x32_S1600000x1_S1600000x32_1_0_0_1_wf : ScatterDims.WF S100000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x32.size a ≤ S1600000x32.size a
  hwx0_0 : ∀ i : grid0.Coords, EltTy.bits .f32 = 32 ∨ (Rect.block (s := S1600000x32) S6400x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x1.size a ≤ S1600000x1.size a
  hwx0_1 : ∀ i : grid0.Coords, EltTy.bits .f32 = 32 ∨ (Rect.block (s := S1600000x1) S6400x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x1.size a ≤ S1600000x1.size a
  hwx0_2 : ∀ i : grid0.Coords, EltTy.bits .f32 = 32 ∨ (Rect.block (s := S1600000x1) S6400x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S6400x32.size a ≤ S1600000x32.size a
  hwx0_3 : ∀ i : grid0.Coords, EltTy.bits .f32 = 32 ∨ (Rect.block (s := S1600000x32) S6400x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S100000x32.size a
  hwx1_0 : ∀ i : grid1.Coords, EltTy.bits .f32 = 32 ∨ (Rect.block (s := S100000x32) S2000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x32.size a ≤ S100000x32.size a
  hwx1_2 : ∀ i : grid1.Coords, EltTy.bits .f32 = 32 ∨ (Rect.block (s := S100000x32) S2000x32.size (cc1_transform_2 i) (hinb1_2 i)).WholeWords (EltTy.packing .f32)

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

abbrev win0_0 : Pipeline.Window sig grid0 :=
  Pipeline.Window.ofSpec (Memref.whole main_v6) S6400x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S6400x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S6400x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S6400x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v17) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S2000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x32 : Shape := ⟨2, ![100000, 32]⟩
abbrev S100000x1 : Shape := ⟨2, ![100000, 1]⟩
abbrev S1600000x1 : Shape := ⟨2, ![1600000, 1]⟩
abbrev S1600000 : Shape := ⟨1, ![1600000]⟩
abbrev S_ : Shape := ⟨0, ![]⟩
abbrev S1600000x32 : Shape := ⟨2, ![1600000, 32]⟩

abbrev nBuf : Space → Nat
  | .hbm => 39
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S100000x1, .f32⟩
  | .hbm, ⟨2, _⟩ => ⟨S1600000x1, .f32⟩
  | .hbm, ⟨3, _⟩ => ⟨S1600000, .i32⟩
  | .hbm, ⟨4, _⟩ => ⟨S1600000, .i32⟩
  | .hbm, ⟨5, _⟩ => ⟨S_, .f32⟩
  | .hbm, ⟨6, _⟩ => ⟨S1600000x1, .f32⟩
  | .hbm, ⟨7, _⟩ => ⟨S1600000x1, .i1⟩
  | .hbm, ⟨8, _⟩ => ⟨S1600000x1, .f32⟩
  | .hbm, ⟨9, _⟩ => ⟨S_, .f32⟩
  | .hbm, ⟨10, _⟩ => ⟨S1600000x1, .f32⟩
  | .hbm, ⟨11, _⟩ => ⟨S1600000x1, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x32, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x1, .f32⟩
  | .hbm, ⟨30, _⟩ => ⟨S1600000x1, .f32⟩
  | .hbm, ⟨31, _⟩ => ⟨S1600000x32, .f32⟩
  | .hbm, ⟨32, _⟩ => ⟨S1600000x32, .f32⟩
  | .hbm, ⟨33, _⟩ => ⟨S_, .f32⟩
  | .hbm, ⟨34, _⟩ => ⟨S100000x32, .f32⟩
  | .hbm, ⟨35, _⟩ => ⟨S1600000x1, .i32⟩
  | .hbm, ⟨36, _⟩ => ⟨S100000x32, .f32⟩
  | .hbm, ⟨37, _⟩ => ⟨S100000x32, .f32⟩
  | .hbm, ⟨38, _⟩ => ⟨S100000x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]

class Facts₀ : Prop where
  bcast_S_S1600000x1 : S_.BroadcastsInDim S1600000x1 (![] : Fin 0 → Fin S1600000x1.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  gather_S100000x32_S1600000x1_S1600000x32_1_0_n_n_0_1_132_wf : GatherDims.WF S100000x32 S1600000x1 S1600000x32 [1] [0] [] [0] [] 1 ![1, 32]
  gather_S100000x1_S1600000x1_S1600000x1_1_0_n_n_0_1_11_wf : GatherDims.WF S100000x1 S1600000x1 S1600000x1 [1] [0] [] [0] [] 1 ![1, 1]
  scatter_S100000x32_S1600000x1_S1600000x32_1_0_0_1_wf : ScatterDims.WF S100000x32 S1600000x1 S1600000x32 [1] [0] [0] 1

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.KernelRun.lean ====
/-
  The whole program's run with its result named.

  @main is four segments: the host operations that gather the source rows, the first kernel region, the host
  scatter-add, the second kernel region.  The memory at each boundary is a fold of the segment before it over the
  memory at the previous boundary.  Every weakly fair execution terminates without a fault, and the final memory
  holds, at every buffer that is not scoped to a region, the contents of the last boundary: in particular the result
  array holds what the second region's write-backs leave, and the five arguments are as launched.
-/
import proofs.«159596_j9268539425561_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result array ends at the last
    boundary's contents of its buffer, and the arguments end as launched. -/
theorem run_result : θ_run defs (onTc (τ := τ) (main (F := F))) ⟨m, fun _ => 0, ρ⟩ (fun r => ∀ c : Dev nD,
      r.2.mem ((c.tc : Thread nD τ).loc main_v18) = W4 m ρ c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v18 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelIdeal.Run

end
-- ==== Proof.Spec.lean ====
/-
  The mathematics both programs compute, stated once, index by index, on the extended reals.

  An edge `e` carries the message
      m[e, d] = feature[src e, d] · ( ci[src e, 0] · ( [drop[e, 0] < keep] / keep ) ),
  where `keep` is the real number that the single-precision word of 0.3 denotes, 5033165 / 16777216, and
  `[·]` is the 0/1 indicator of the comparison.  A node `n` ends with
      out[n, d] = h[n, d] · ci[n, 0],
  where `h` is the sum of the messages of the edges that point at `n`.

  The one algebraic law used: for a nonzero real `keep`, dividing an extended real by `keep` is multiplying
  it by the real `1 / keep` — here `16777216 / 5033165`.  It holds on every extended real, the infinities
  included, so no finiteness of the inputs is needed.
-/
import Idealize.ShloMosaic.PureOps.Ideal
import Idealize.ShloMosaic.Lib.ValueIdx

noncomputable section

namespace Cert.Spec

open Idealize.ShloMosaic

/-! ## The keep probability and the scalar law -/

/-- The keep probability: the real the single-precision word `0x3E99999A` (0.3 rounded) denotes. -/
def keep : EReal := Ideal.ofBits .f32 0x3E99999A#32

/-- It is the dyadic rational `5033165 / 2^24`. -/
theorem keep_eq : keep = ((5033165 / 16777216 : ℝ) : EReal) := by
  unfold keep
  simp [Ideal.ofBits, Ideal.ieee, -EReal.coe_mul]; norm_num

/-- Multiplying by the exact reciprocal of `keep` is dividing by `keep`, on every extended real. -/
theorem mul_inv_keep (x : EReal) : x * ((16777216 / 5033165 : ℝ) : EReal) = Ideal.div x keep := by
  rw [keep_eq, Ideal.div_coe (by norm_num : (5033165 / 16777216 : ℝ) ≠ 0)]
  have h : (1 / (5033165 / 16777216) : ℝ) = 16777216 / 5033165 := by norm_num
  rw [h]

/-- A one-bit word widened to 32 bits and read as a signed integer is the bit read as an unsigned integer:
    both are the real 0 or 1. -/
theorem signed_widened_bit (b : BitVec 1) :
    (((b.setWidth 32).toInt : ℝ) : EReal) = ((b.toNat : ℝ) : EReal) := by
  rcases BitVec.eq_zero_or_eq_one b with h | h <;> subst h <;> simp

/-- The dropout factor of one edge: the 0/1 indicator of `d < keep`, divided by `keep`. -/
def keptOver (d : EReal) : EReal :=
  Ideal.div (((Ideal.cmp .olt d keep).toNat : ℝ) : EReal) keep

/-! ## The two stages, index by index -/

/-- Edges × features, edges × 1, nodes × features, nodes × 1. -/
abbrev SE32 : Shape := ⟨2, ![1600000, 32]⟩
abbrev SE1 : Shape := ⟨2, ![1600000, 1]⟩
abbrev SN32 : Shape := ⟨2, ![100000, 32]⟩
abbrev SN1 : Shape := ⟨2, ![100000, 1]⟩

/-- The row of an edge × feature index, as an index of an edges × 1 column. -/
def edgeRow (i : SE32.Idx) : SE1.Idx := fun a => match a with
  | ⟨0, _⟩ => ⟨(i 0).val, (i 0).isLt⟩
  | ⟨1, _⟩ => ⟨0, Nat.one_pos⟩

/-- The row of a node × feature index, as an index of a nodes × 1 column. -/
def nodeRow (i : SN32.Idx) : SN1.Idx := fun a => match a with
  | ⟨0, _⟩ => ⟨(i 0).val, (i 0).isLt⟩
  | ⟨1, _⟩ => ⟨0, Nat.one_pos⟩

/-- The per-edge message from the gathered source features `f`, the gathered source coefficients `cs` and the
    dropout draws `dr`. -/
def message (f : SE32.Idx → EReal) (cs dr : SE1.Idx → EReal) : SE32.Idx → EReal :=
  fun i => f i * (cs (edgeRow i) * keptOver (dr (edgeRow i)))

/-- The per-node result from the summed messages `h` and the node coefficients `ci`. -/
def scaled (h : SN32.Idx → EReal) (ci : SN1.Idx → EReal) : SN32.Idx → EReal :=
  fun i => h i * ci (nodeRow i)

end Cert.Spec

end
-- ==== Proof.EdgeRegion.lean ====
/-
  The first kernel region, read as one whole-array function.

  Grid point `t` of 250 stages rows `6400·t … 6400·t + 6399` of the gathered source features (6400 × 32), of the
  gathered source coefficients (6400 × 1) and of the dropout draws (6400 × 1), and writes back the same rows of the
  message array.  Entry `(r, d)` of the block it writes is
      feature row entry · ( coefficient of row r · ( [draw of row r < keep] · (1 / keep) ) ),
  the last factor being the named reciprocal `16777216 / 5033165 = 1 / keep`; by the scalar law of the
  specification this is `Spec.message` at array row `6400·t + r`.  The 250 blocks tile the 1600000 rows (row `i`
  lies in block `i / 6400`), so after the region the whole message array is `Spec.message` of the three
  arrays the region found.
-/
import proofs.«159596_j9268539425561_2_alg».proof.Proof.Gen.KernelIdeal.Frame
import proofs.«159596_j9268539425561_2_alg».proof.Proof.Spec
import Idealize.ShloMosaic.Lib.Pipeline.Value
import Idealize.ShloMosaic.Lib.ValueIdx
import Idealize.ShloMosaic.PureOps.IdealRules

noncomputable section

namespace Cert.KernelIdeal.Edge

open Cert.KernelIdeal Cert.KernelIdeal.Gen Idealize.ShloMosaic Idealize.ShloMosaic.TcCoe Idealize.SL.Sem
open Idealize.ShloMosaic.Pipeline (Dat)
open Cert.Spec

variable (V : (c : Dev nD) → (b : Ref sig .tc) → Buf (Elt Ideal) ((c : Thread nD τ).loc b))

theorem origin : (![0, 0] : Fin 2 → Nat) = fun _ => 0 := funext fun a => by fin_cases a <;> rfl

/-- The named reciprocal denotes `16777216 / 5033165`, the exact inverse of `keep`. -/
theorem inv_keep :
    Named.named (F := Ideal) κ "inv_keep" (φ := .f32) 0x40555555#32 = ((16777216 / 5033165 : ℝ) : EReal) :=
  IdealRules.named_const.ideal_named_scalar _ _ _ _ rfl

/-- The row of a 6400 × 32 block index, as an index of a 6400 × 1 block. -/
def blkRow (j : S6400x32.Idx) : S6400x1.Idx := fun a => match a with
  | ⟨0, _⟩ => ⟨(j 0).val, (j 0).isLt⟩
  | ⟨1, _⟩ => ⟨0, Nat.one_pos⟩

/-- One entry of the block the body stores: the feature entry times the row's coefficient times the row's
    dropout factor. -/
theorem payload_apply (v0 : Vec Ideal S6400x1 .f32) (v7 : Vec Ideal S6400x32 .f32) (v9 : Vec Ideal S6400x1 .f32)
    (j : S6400x32.Idx) :
    k0_pay1 v0 v7 v9 j = v7 j * (v9 (blkRow j) * keptOver (v0 (blkRow j))) := by
  unfold k0_pay1
  rw [shapeCast_self, shapeCast_self]
  show v7 j * broadcastTo S6400x32 _ broadcasts_S6400x1_S6400x32 j = _
  rw [broadcastTo_apply _ broadcasts_S6400x1_S6400x32 j (blkRow j) (fun a => match a with
    | ⟨0, _⟩ => by show (j 0).val = if (6400 : Nat) = 1 then 0 else (j 0).val; rw [if_neg (by decide)]
    | ⟨1, _⟩ => by show 0 = if (1 : Nat) = 1 then 0 else (j 1).val; rw [if_pos rfl])]
  show v7 j * (v9 (blkRow j) * (((((Ideal.cmp .olt (v0 (blkRow j)) keep).setWidth 32).toInt : ℝ) : EReal)
    * Named.named (F := Ideal) κ "inv_keep" (φ := .f32) 0x40555555#32)) = _
  rw [inv_keep, signed_widened_bit, mul_inv_keep]
  rfl

/-- Where the printed index maps send a grid point, decided over the 250 points: every window moves with the
    output's row block, the column block is always 0, and the output's row block is the point's number. -/
theorem idx_facts : ∀ t : Fin cfg0.N,
    win0_0.index t (0 : Fin 2) = win0_3.index t (0 : Fin 2) ∧ win0_0.index t (1 : Fin 2) = win0_3.index t (1 : Fin 2)
    ∧ win0_1.index t (0 : Fin 2) = win0_3.index t (0 : Fin 2) ∧ win0_1.index t (1 : Fin 2) = 0
    ∧ win0_2.index t (0 : Fin 2) = win0_3.index t (0 : Fin 2) ∧ win0_2.index t (1 : Fin 2) = 0
    ∧ win0_3.index t (0 : Fin 2) = t.val ∧ win0_3.index t (1 : Fin 2) = 0 :=
  (by decide +kernel : ∀ t : Fin grid0.N, _)

/-- What point `t` writes back is block `t` of `Spec.message` of the three arrays the region found. -/
theorem flushed_eq (c : Dev nD) (t : Fin cfg0.N) :
    (dat0 V c).flushed 3 t
      = ((cfg0.win 3).blk t).view.read (Elt Ideal) (message (V c main_v6) (V c main_v13) (V c main_arg2)) := by
  show (cfg0.win 3).cut (grid0.coords t) ((dat0 V c).after 3 t) = _
  rw [after0_3]
  unfold out0_3
  rw [View.canon_unit_zero origin]
  simp only [View.ld_unit_zero (S := S6400x32) origin, View.ld_unit_zero (S := S6400x1) origin]
  obtain ⟨e0, e1, e2, e3, e4, e5, e6, e7⟩ := idx_facts t
  funext j
  show k0_pay1 (iblk0 V c 2 t) (iblk0 V c 0 t) (iblk0 V c 1 t) j
    = message (V c main_v6) (V c main_v13) (V c main_arg2) (((cfg0.win 3).blk t).view.emb j)
  rw [payload_apply (iblk0 V c 2 t) (iblk0 V c 0 t) (iblk0 V c 1 t) j]
  have h0 : ((cfg0.win 0).blk t).view.emb j = ((cfg0.win 3).blk t).view.emb j := by
    funext a; apply Fin.ext
    match a with
    | ⟨0, _⟩ => show win0_0.index t (0 : Fin 2) * 6400 + 1 * (j 0).val = win0_3.index t (0 : Fin 2) * 6400 + 1 * (j 0).val; omega
    | ⟨1, _⟩ => show win0_0.index t (1 : Fin 2) * 32 + 1 * (j 1).val = win0_3.index t (1 : Fin 2) * 32 + 1 * (j 1).val; omega
  have h1 : ((cfg0.win 1).blk t).view.emb (blkRow j) = edgeRow (((cfg0.win 3).blk t).view.emb j) := by
    funext a; apply Fin.ext
    match a with
    | ⟨0, _⟩ => show win0_1.index t (0 : Fin 2) * 6400 + 1 * (j 0).val = win0_3.index t (0 : Fin 2) * 6400 + 1 * (j 0).val; omega
    | ⟨1, _⟩ => show win0_1.index t (1 : Fin 2) * 1 + 1 * 0 = 0; omega
  have h2 : ((cfg0.win 2).blk t).view.emb (blkRow j) = edgeRow (((cfg0.win 3).blk t).view.emb j) := by
    funext a; apply Fin.ext
    match a with
    | ⟨0, _⟩ => show win0_2.index t (0 : Fin 2) * 6400 + 1 * (j 0).val = win0_3.index t (0 : Fin 2) * 6400 + 1 * (j 0).val; omega
    | ⟨1, _⟩ => show win0_2.index t (1 : Fin 2) * 1 + 1 * 0 = 0; omega
  have g0 : iblk0 V c 0 t j = V c main_v6 (((cfg0.win 3).blk t).view.emb j) := by rw [← h0]; rfl
  have g1 : iblk0 V c 1 t (blkRow j) = V c main_v13 (edgeRow (((cfg0.win 3).blk t).view.emb j)) := by rw [← h1]; rfl
  have g2 : iblk0 V c 2 t (blkRow j) = V c main_arg2 (edgeRow (((cfg0.win 3).blk t).view.emb j)) := by rw [← h2]; rfl
  rw [g0, g1, g2]
  rfl

/-- An array index is in point `t`'s block iff each coordinate is in the block's range on its axis. -/
theorem mem_blk (t : Fin cfg0.N) (i : S1600000x32.Idx) :
    i ∈ ((cfg0.win 3).blk t).view.set ↔ ∀ a : Fin 2, win0_3.index t a * S6400x32.size a ≤ (i a).val
      ∧ (i a).val < win0_3.index t a * S6400x32.size a + S6400x32.size a := by
  show i ∈ ((View.whole main_v14).slice (win0_3.rect t)).set ↔ _
  rw [View.set_slice_whole, Rect.mem_set_unit]
  exact Iff.rfl

/-- Row `i` of the message array lies in the block of point `i / 6400`: the 250 blocks cover the array. -/
theorem cover (i : S1600000x32.Idx) :
    ∃ t : Fin cfg0.N, (cfg0.win 3).flush t = true ∧ i ∈ ((cfg0.win 3).blk t).view.set := by
  have hi0 : (i 0).val < 1600000 := (i 0).isLt
  have hi1 : (i 1).val < 32 := (i 1).isLt
  have hN : grid0.N = 250 := N_0
  have hlt : (i 0).val / 6400 < grid0.N := by omega
  obtain ⟨-, -, -, -, -, -, e6, e7⟩ := idx_facts ⟨(i 0).val / 6400, hlt⟩
  refine ⟨⟨(i 0).val / 6400, hlt⟩, flush0_3 _, ?_⟩
  rw [mem_blk]
  intro a
  match a with
  | ⟨0, _⟩ =>
    show win0_3.index ⟨(i 0).val / 6400, hlt⟩ (0 : Fin 2) * 6400 ≤ (i 0).val
      ∧ (i 0).val < win0_3.index ⟨(i 0).val / 6400, hlt⟩ (0 : Fin 2) * 6400 + 6400
    have e6' : win0_3.index ⟨(i 0).val / 6400, hlt⟩ (0 : Fin 2) = (i 0).val / 6400 := e6
    omega
  | ⟨1, _⟩ =>
    show win0_3.index ⟨(i 0).val / 6400, hlt⟩ (1 : Fin 2) * 32 ≤ (i 1).val
      ∧ (i 1).val < win0_3.index ⟨(i 0).val / 6400, hlt⟩ (1 : Fin 2) * 32 + 32
    omega

/-- After the region the message array is `Spec.message` of the gathered features, the gathered coefficients
    and the dropout draws, as the region found them. -/
theorem final (c : Dev nD) :
    (dat0 V c).arrAt 3 cfg0.N = message (V c main_v6) (V c main_v13) (V c main_arg2) :=
  (dat0 V c).arrAt_eq_of_cover 3 _ (fun t _ => flushed_eq V c t) cover

end Cert.KernelIdeal.Edge

end
-- ==== Proof.ScaleRegion.lean ====
/-
  The second kernel region, read as one whole-array function.

  Grid point `t` of 50 stages rows `2000·t … 2000·t + 1999` of the summed messages (2000 × 32) and of the node
  coefficients (2000 × 1) and writes back the same rows of the result.  Entry `(r, d)` of the block it writes is
  the summed message entry times the coefficient of row `r`: `Spec.scaled` at array row `2000·t + r`.  The 50
  blocks tile the 100000 rows (row `i` lies in block `i / 2000`), so after the region the whole result array is
  `Spec.scaled` of the two arrays the region found.
-/
import proofs.«159596_j9268539425561_2_alg».proof.Proof.Gen.KernelIdeal.Frame
import proofs.«159596_j9268539425561_2_alg».proof.Proof.Spec
import Idealize.ShloMosaic.Lib.Pipeline.Value
import Idealize.ShloMosaic.Lib.ValueIdx

noncomputable section

namespace Cert.KernelIdeal.Scale

open Cert.KernelIdeal Cert.KernelIdeal.Gen Idealize.ShloMosaic Idealize.ShloMosaic.TcCoe Idealize.SL.Sem
open Idealize.ShloMosaic.Pipeline (Dat)
open Cert.Spec

variable (V : (c : Dev nD) → (b : Ref sig .tc) → Buf (Elt Ideal) ((c : Thread nD τ).loc b))

theorem origin : (![0, 0] : Fin 2 → Nat) = fun _ => 0 := funext fun a => by fin_cases a <;> rfl

/-- The row of a 2000 × 32 block index, as an index of a 2000 × 1 block. -/
def blkRow (j : S2000x32.Idx) : S2000x1.Idx := fun a => match a with
  | ⟨0, _⟩ => ⟨(j 0).val, (j 0).isLt⟩
  | ⟨1, _⟩ => ⟨0, Nat.one_pos⟩

/-- One entry of the block the body stores: the summed message entry times the row's coefficient. -/
theorem payload_apply (v0 : Vec Ideal S2000x32 .f32) (v2 : Vec Ideal S2000x1 .f32) (j : S2000x32.Idx) :
    k1_pay1 v0 v2 j = v0 j * v2 (blkRow j) := by
  unfold k1_pay1
  rw [shapeCast_self]
  show v0 j * broadcastTo S2000x32 v2 broadcasts_S2000x1_S2000x32 j = _
  rw [broadcastTo_apply v2 broadcasts_S2000x1_S2000x32 j (blkRow j) (fun a => match a with
    | ⟨0, _⟩ => by show (j 0).val = if (2000 : Nat) = 1 then 0 else (j 0).val; rw [if_neg (by decide)]
    | ⟨1, _⟩ => by show 0 = if (1 : Nat) = 1 then 0 else (j 1).val; rw [if_pos rfl])]

/-- Where the printed index maps send a grid point, decided over the 50 points: both input windows move with the
    output's row block, the column block is always 0, and the output's row block is the point's number. -/
theorem idx_facts : ∀ t : Fin cfg1.N,
    win1_0.index t (0 : Fin 2) = win1_2.index t (0 : Fin 2) ∧ win1_0.index t (1 : Fin 2) = win1_2.index t (1 : Fin 2)
    ∧ win1_1.index t (0 : Fin 2) = win1_2.index t (0 : Fin 2) ∧ win1_1.index t (1 : Fin 2) = 0
    ∧ win1_2.index t (0 : Fin 2) = t.val ∧ win1_2.index t (1 : Fin 2) = 0 :=
  (by decide +kernel : ∀ t : Fin grid1.N, _)

/-- What point `t` writes back is block `t` of `Spec.scaled` of the two arrays the region found. -/
theorem flushed_eq (c : Dev nD) (t : Fin cfg1.N) :
    (dat1 V c).flushed 2 t
      = ((cfg1.win 2).blk t).view.read (Elt Ideal) (scaled (V c main_v17) (V c main_arg1)) := by
  show (cfg1.win 2).cut (grid1.coords t) ((dat1 V c).after 2 t) = _
  rw [after1_2]
  unfold out1_2
  rw [View.canon_unit_zero origin]
  simp only [View.ld_unit_zero (S := S2000x32) origin, View.ld_unit_zero (S := S2000x1) origin]
  obtain ⟨e0, e1, e2, e3, e4, e5⟩ := idx_facts t
  funext j
  show k1_pay1 (iblk1 V c 0 t) (iblk1 V c 1 t) j
    = scaled (V c main_v17) (V c main_arg1) (((cfg1.win 2).blk t).view.emb j)
  rw [payload_apply (iblk1 V c 0 t) (iblk1 V c 1 t) j]
  have h0 : ((cfg1.win 0).blk t).view.emb j = ((cfg1.win 2).blk t).view.emb j := by
    funext a; apply Fin.ext
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 32 + 1 * (j 1).val = win1_2.index t (1 : Fin 2) * 32 + 1 * (j 1).val; omega
  have h1 : ((cfg1.win 1).blk t).view.emb (blkRow j) = nodeRow (((cfg1.win 2).blk t).view.emb j) := by
    funext a; apply Fin.ext
    match a with
    | ⟨0, _⟩ => show win1_1.index t (0 : Fin 2) * 2000 + 1 * (j 0).val = win1_2.index t (0 : Fin 2) * 2000 + 1 * (j 0).val; omega
    | ⟨1, _⟩ => show win1_1.index t (1 : Fin 2) * 1 + 1 * 0 = 0; omega
  have g0 : iblk1 V c 0 t j = V c main_v17 (((cfg1.win 2).blk t).view.emb j) := by rw [← h0]; rfl
  have g1 : iblk1 V c 1 t (blkRow j) = V c main_arg1 (nodeRow (((cfg1.win 2).blk t).view.emb j)) := by rw [← h1]; rfl
  rw [g0, g1]
  rfl

/-- An array index is in point `t`'s block iff each coordinate is in the block's range on its axis. -/
theorem mem_blk (t : Fin cfg1.N) (i : S100000x32.Idx) :
    i ∈ ((cfg1.win 2).blk t).view.set ↔ ∀ a : Fin 2, win1_2.index t a * S2000x32.size a ≤ (i a).val
      ∧ (i a).val < win1_2.index t a * S2000x32.size a + S2000x32.size a := by
  show i ∈ ((View.whole main_v18).slice (win1_2.rect t)).set ↔ _
  rw [View.set_slice_whole, Rect.mem_set_unit]
  exact Iff.rfl

/-- Row `i` of the result lies in the block of point `i / 2000`: the 50 blocks cover the array. -/
theorem cover (i : S100000x32.Idx) :
    ∃ t : Fin cfg1.N, (cfg1.win 2).flush t = true ∧ i ∈ ((cfg1.win 2).blk t).view.set := by
  have hi0 : (i 0).val < 100000 := (i 0).isLt
  have hi1 : (i 1).val < 32 := (i 1).isLt
  have hN : grid1.N = 50 := N_1
  have hlt : (i 0).val / 2000 < grid1.N := by omega
  obtain ⟨-, -, -, -, e4, e5⟩ := idx_facts ⟨(i 0).val / 2000, hlt⟩
  refine ⟨⟨(i 0).val / 2000, hlt⟩, flush1_2 _, ?_⟩
  rw [mem_blk]
  intro a
  match a with
  | ⟨0, _⟩ =>
    show win1_2.index ⟨(i 0).val / 2000, hlt⟩ (0 : Fin 2) * 2000 ≤ (i 0).val
      ∧ (i 0).val < win1_2.index ⟨(i 0).val / 2000, hlt⟩ (0 : Fin 2) * 2000 + 2000
    have e4' : win1_2.index ⟨(i 0).val / 2000, hlt⟩ (0 : Fin 2) = (i 0).val / 2000 := e4
    omega
  | ⟨1, _⟩ =>
    show win1_2.index ⟨(i 0).val / 2000, hlt⟩ (1 : Fin 2) * 32 ≤ (i 1).val
      ∧ (i 1).val < win1_2.index ⟨(i 0).val / 2000, hlt⟩ (1 : Fin 2) * 32 + 32
    omega

/-- After the region the result array is `Spec.scaled` of the summed messages and the node coefficients, as the
    region found them. -/
theorem final (c : Dev nD) :
    (dat1 V c).arrAt 2 cfg1.N = scaled (V c main_v17) (V c main_arg1) :=
  (dat1 V c).arrAt_eq_of_cover 2 _ (fun t _ => flushed_eq V c t) cover

end Cert.KernelIdeal.Scale

end
-- ==== Proof.KernelValue.lean ====
/-
  The kernel program's result as one function of its five arguments.

  Reading the boundaries of the run backwards: the result array is what the second region leaves, `Spec.scaled`
  of the summed messages and the node coefficients as that region found them; the summed messages are the host's
  scatter-add, over the destination indices, of the message array the first region left onto zeros; that array is
  `Spec.message` of the gathered source features, the gathered source coefficients and the dropout draws as the
  first region found them; and the two gathered arrays are the host's gathers of the feature and coefficient
  tables at the source indices (a negative index first moved up by the number of nodes).  No host operation and
  no region writes an argument, so each boundary reads the arguments as launched.
-/
import proofs.«159596_j9268539425561_2_alg».proof.Proof.KernelRun
import proofs.«159596_j9268539425561_2_alg».proof.Proof.EdgeRegion
import proofs.«159596_j9268539425561_2_alg».proof.Proof.ScaleRegion
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.StableHlo
open Cert.Spec

/-! ## The host operations around the regions, as functions of the arguments -/

/-- The start rows both gathers read: the source indices, a negative one moved up by the number of nodes, as a
    column. -/
def startRows (x3 : (⟨S1600000, .i32⟩ : BufTy).Contents (Elt Ideal)) : (⟨S1600000x1, .i32⟩ : BufTy).Contents (Elt Ideal) :=
  broadcastInDim S1600000x1 ![0] bcast_S1600000_S1600000x1_0
    (select (cmpi .slt x3 (broadcastInDim S1600000 ![] bcast_S_S1600000 (constantI S_ 32 0#32)))
      (addi x3 (broadcastInDim S1600000 ![] bcast_S_S1600000 (constantI S_ 32 100000#32))) x3)

/-- The feature rows of the edges' sources. -/
def srcFeatures (x0 : (⟨S100000x32, .f32⟩ : BufTy).Contents (Elt Ideal)) (x3 : (⟨S1600000, .i32⟩ : BufTy).Contents (Elt Ideal)) :
    (⟨S1600000x32, .f32⟩ : BufTy).Contents (Elt Ideal) :=
  Host.gather gather_S100000x32_S1600000x1_S1600000x32_1_0_n_n_0_1_132 x0 (startRows x3)

/-- The coefficients of the edges' sources. -/
def srcCoeffs (x1 : (⟨S100000x1, .f32⟩ : BufTy).Contents (Elt Ideal)) (x3 : (⟨S1600000, .i32⟩ : BufTy).Contents (Elt Ideal)) :
    (⟨S1600000x1, .f32⟩ : BufTy).Contents (Elt Ideal) :=
  Host.gather gather_S100000x1_S1600000x1_S1600000x1_1_0_n_n_0_1_11 x1 (startRows x3)

/-- The messages `u` summed into their destination nodes `x4`, from zeros. -/
def summed (x4 : (⟨S1600000, .i32⟩ : BufTy).Contents (Elt Ideal)) (u : (⟨S1600000x32, .f32⟩ : BufTy).Contents (Elt Ideal)) :
    (⟨S100000x32, .f32⟩ : BufTy).Contents (Elt Ideal) :=
  Host.scatterAdd (F := Ideal) scatter_S100000x32_S1600000x1_S1600000x32_1_0_0_1
    (broadcastInDim S100000x32 ![] bcast_S_S100000x32 (constant (F := Ideal) S_ .f32 0x00000000#32))
    (broadcastInDim S1600000x1 ![0] bcast_S1600000_S1600000x1_0 x4) u

variable (m : (ℓ : Loc nD τ sig) → Buf (Elt Ideal) ℓ) (ρ : Dev nD → PrngReg)

/-! ## What the first region finds -/

theorem entry_features (c : Dev nD) :
    V1 m ρ c main_v6 = srcFeatures (m ((c : Thread nD τ).loc main_arg0)) (m ((c : Thread nD τ).loc main_arg3)) := by
  show StableHlo.after hostOps0 (W0 m ρ c) (Proc.devRef .tc main_v6) = _
  after_results_simp <;> rfl

theorem entry_coeffs (c : Dev nD) :
    V1 m ρ c main_v13 = srcCoeffs (m ((c : Thread nD τ).loc main_arg1)) (m ((c : Thread nD τ).loc main_arg3)) := by
  show StableHlo.after hostOps0 (W0 m ρ c) (Proc.devRef .tc main_v13) = _
  after_results_simp <;> rfl

theorem entry_draws (c : Dev nD) : V1 m ρ c main_arg2 = m ((c : Thread nD τ).loc main_arg2) := by
  show StableHlo.after hostOps0 (W0 m ρ c) (Proc.devRef .tc main_arg2) = _
  after_results_simp <;> rfl

/-! ## What the first region leaves, and what the second finds -/

/-- After the first region the message array is `Spec.message` of the gathered source rows and the draws. -/
theorem messages (c : Dev nD) :
    W2 m ρ c (Proc.devRef .tc main_v14)
      = message (srcFeatures (m ((c : Thread nD τ).loc main_arg0)) (m ((c : Thread nD τ).loc main_arg3)))
          (srcCoeffs (m ((c : Thread nD τ).loc main_arg1)) (m ((c : Thread nD τ).loc main_arg3)))
          (m ((c : Thread nD τ).loc main_arg2)) :=
  (W2_arr m ρ c 3).trans ((Edge.final (V1 m ρ) c).trans (by rw [entry_features, entry_coeffs, entry_draws]))

/-- The destination indices are as launched when the scatter-add reads them. -/
theorem dst_kept (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results_simp <;> rfl)

/-- The second region finds the scatter-add of the first region's array. -/
theorem entry_summed (c : Dev nD) :
    V3 m ρ c main_v17 = summed (W2 m ρ c (Proc.devRef .tc main_arg4)) (W2 m ρ c (Proc.devRef .tc main_v14)) := by
  show StableHlo.after hostOps1 (W2 m ρ c) (Proc.devRef .tc main_v17) = _
  after_results_simp <;> rfl

/-- The second region finds the node coefficients as launched. -/
theorem entry_node_coeffs (c : Dev nD) : V3 m ρ c main_arg1 = m ((c : Thread nD τ).loc main_arg1) :=
  ((W4_arr m ρ c 1).trans (((dat1 (V3 m ρ) c).arrAt_in 1 rfl _).trans (A_eq1 (V3 m ρ) c 1))).symm.trans
    (W4_main_arg1 m ρ c)

/-! ## The result -/

/-- The result array at the last boundary, as one function of the arguments. -/
theorem result (c : Dev nD) :
    W4 m ρ c (Proc.devRef .tc main_v18)
      = scaled (summed (m ((c : Thread nD τ).loc main_arg4))
          (message (srcFeatures (m ((c : Thread nD τ).loc main_arg0)) (m ((c : Thread nD τ).loc main_arg3)))
            (srcCoeffs (m ((c : Thread nD τ).loc main_arg1)) (m ((c : Thread nD τ).loc main_arg3)))
            (m ((c : Thread nD τ).loc main_arg2))))
          (m ((c : Thread nD τ).loc main_arg1)) :=
  (W4_arr m ρ c 2).trans ((Scale.final (V3 m ρ) c).trans (by
    rw [entry_summed, entry_node_coeffs, dst_kept, messages]))

/-- Every weakly fair execution of the kernel program terminates, nothing faulting, with the result array at that
    function of the arguments and the arguments as launched. -/
theorem run : θ_run defs (onTc (τ := τ) (main (F := Ideal))) ⟨m, fun _ => 0, ρ⟩ (fun r => ∀ c : Dev nD,
      r.2.mem ((c.tc : Thread nD τ).loc main_v18)
        = scaled (summed (m ((c : Thread nD τ).loc main_arg4))
            (message (srcFeatures (m ((c : Thread nD τ).loc main_arg0)) (m ((c : Thread nD τ).loc main_arg3)))
              (srcCoeffs (m ((c : Thread nD τ).loc main_arg1)) (m ((c : Thread nD τ).loc main_arg3)))
              (m ((c : Thread nD τ).loc main_arg2))))
            (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result m ρ c), (h c).2⟩) (Run.run_result m ρ)

end Cert.KernelIdeal.Whole

end
-- ==== Proof.RefStages.lean ====
/-
  The reference's two float stages are the specification's, index by index.

  Its message array is the gathered features times the broadcast of (gathered coefficients times
  ([draw < keep] converted to a float, divided by keep)): at index `(e, d)` that is `Spec.message`.  Its result is
  the scatter-added messages times the broadcast of the node coefficients: at index `(n, d)` that is
  `Spec.scaled`.  The gathers and the scatter-add are left closed: only the operations around them are read.
-/
import proofs.«159596_j9268539425561_2_alg».proof.Proof.Gen.ReferenceIdeal.Read
import proofs.«159596_j9268539425561_2_alg».proof.Proof.Spec
import Idealize.ShloMosaic.Lib.ValueIdx

noncomputable section

namespace Cert.ReferenceIdeal.Stages

open Cert.ReferenceIdeal Cert.ReferenceIdeal.Read Idealize.ShloMosaic Idealize.ShloMosaic.TcCoe
open Cert.Spec

/-- The reference's message array is `Spec.message` of its gathered features, its gathered coefficients and
    the dropout draws. -/
theorem message_eq (x0 : (⟨S100000x32, .f32⟩ : BufTy).Contents (Elt Ideal)) (x1 : (⟨S100000x1, .f32⟩ : BufTy).Contents (Elt Ideal))
    (x2 : (⟨S1600000x1, .f32⟩ : BufTy).Contents (Elt Ideal)) (x3 : (⟨S1600000, .i32⟩ : BufTy).Contents (Elt Ideal)) :
    val_main_v21 (F := Ideal) x0 x1 x2 x3
      = message (val_main_v11 (F := Ideal) x0 x3) (val_main_v18 (F := Ideal) x1 x3) x2 := by
  funext i
  rw [val_main_v21_apply, val_main_v20_apply, val_main_v19_apply, val_main_v4_apply, val_main_v2_apply,
    val_main_v1_apply, val_main_v3_apply, val_main_v0_apply, val_main_cst_0_apply, val_main_cst_apply]
  rfl

/-- The reference's result is `Spec.scaled` of its scatter-added messages and the node coefficients. -/
theorem result_eq (x0 : (⟨S100000x32, .f32⟩ : BufTy).Contents (Elt Ideal)) (x1 : (⟨S100000x1, .f32⟩ : BufTy).Contents (Elt Ideal))
    (x2 : (⟨S1600000x1, .f32⟩ : BufTy).Contents (Elt Ideal)) (x3 x4 : (⟨S1600000, .i32⟩ : BufTy).Contents (Elt Ideal)) :
    val_main_v26 (F := Ideal) x0 x1 x2 x3 x4
      = scaled (val_main_v24 (F := Ideal) x0 x1 x2 x3 x4) x1 := by
  funext i
  rw [val_main_v26_apply, val_main_v25_apply]
  rfl

end Cert.ReferenceIdeal.Stages

end
-- ==== Proof.lean ====
/-
  Dropout-weighted message passing on a graph: a two-kernel program against its array reference, over the
  extended reals.

  For an edge `e` from `src e` to `dst e` the message is
      m[e, d] = feature[src e, d] · ( ci[src e, 0] · ( [drop[e, 0] < keep] / keep ) ),
  node `n` sums the messages of the edges pointing at it, and the result is that sum times `ci[n, 0]`.

  The kernel program gathers the source rows on the host, forms the messages in a first kernel tiled over the
  edges (250 blocks of 6400 rows), scatter-adds them on the host, and scales by the node coefficients in a second
  kernel tiled over the nodes (50 blocks of 2000 rows).  Its first kernel multiplies the 0/1 indicator by a folded
  reciprocal where the reference divides by `keep`; the reciprocal is named, and denotes exactly `1 / keep`
  (`keep` being the real 5033165 / 16777216 that the reference's single-precision word of 0.3 denotes), so the
  two factors are one extended real (Proof/Spec.lean).  The reference applies the same gathers and the same
  scatter-add to the same index arrays; both programs' results are therefore
      Spec.scaled (scatter-add of Spec.message (gathered features) (gathered coefficients) draws) ci,
  the kernel's by reading its run boundary by boundary (Proof/KernelRun.lean, Proof/EdgeRegion.lean,
  Proof/ScaleRegion.lean, Proof/KernelValue.lean) and the reference's by reading its two float stages index by
  index (Proof/RefStages.lean).  Nothing here needs the inputs finite.
-/
import proofs.«159596_j9268539425561_2_alg».proof.Defs
import proofs.«159596_j9268539425561_2_alg».proof.Proof.Gen.Kernel
import proofs.«159596_j9268539425561_2_alg».proof.Proof.Gen.Kernel.Skeleton
import proofs.«159596_j9268539425561_2_alg».proof.Proof.Gen.Kernel.Launch
import proofs.«159596_j9268539425561_2_alg».proof.Proof.Gen.Kernel.Points
import proofs.«159596_j9268539425561_2_alg».proof.Proof.Gen.Kernel.Frame
import proofs.«159596_j9268539425561_2_alg».proof.Proof.Gen.KernelIdeal
import proofs.«159596_j9268539425561_2_alg».proof.Proof.Gen.KernelIdeal.Skeleton
import proofs.«159596_j9268539425561_2_alg».proof.Proof.Gen.KernelIdeal.Launch
import proofs.«159596_j9268539425561_2_alg».proof.Proof.Gen.KernelIdeal.Points
import proofs.«159596_j9268539425561_2_alg».proof.Proof.Gen.KernelIdeal.Frame
import proofs.«159596_j9268539425561_2_alg».proof.Proof.Gen.ReferenceIdeal
import proofs.«159596_j9268539425561_2_alg».proof.Proof.Gen.Pre_finite_inputs
import proofs.«159596_j9268539425561_2_alg».proof.Proof.Gen.ReferenceIdeal.Run
import proofs.«159596_j9268539425561_2_alg».proof.Proof.Gen.ReferenceIdeal.Read
import proofs.«159596_j9268539425561_2_alg».proof.Proof.KernelValue
import proofs.«159596_j9268539425561_2_alg».proof.Proof.RefStages
import Idealize.ShloMosaic.Adequacy
import Idealize.ShloMosaic.Init

noncomputable section

namespace Cert.Proof

open Idealize.ShloMosaic Idealize.ShloMosaic.TcCoe Idealize.SL.Sem
open Cert.Spec

/-- The kernel program's and the reference's results are one function of the five arguments: the reference's two
    float stages are `Spec.message` and `Spec.scaled`, and the gathers, the start rows and the scatter-add around
    them are the same operations in both programs. -/
theorem results_agree (x0 : (⟨Cert.ReferenceIdeal.S100000x32, .f32⟩ : BufTy).Contents (Elt Ideal))
    (x1 : (⟨Cert.ReferenceIdeal.S100000x1, .f32⟩ : BufTy).Contents (Elt Ideal))
    (x2 : (⟨Cert.ReferenceIdeal.S1600000x1, .f32⟩ : BufTy).Contents (Elt Ideal))
    (x3 x4 : (⟨Cert.ReferenceIdeal.S1600000, .i32⟩ : BufTy).Contents (Elt Ideal)) :
    Cert.ReferenceIdeal.Read.val_main_v26 (F := Ideal) x0 x1 x2 x3 x4
      = scaled (Cert.KernelIdeal.Whole.summed x4
          (message (Cert.KernelIdeal.Whole.srcFeatures x0 x3) (Cert.KernelIdeal.Whole.srcCoeffs x1 x3) x2)) x1 := by
  rw [Cert.ReferenceIdeal.Stages.result_eq]
  unfold Cert.ReferenceIdeal.Read.val_main_v24
  rw [Cert.ReferenceIdeal.Stages.message_eq]
  rfl

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The one rewrite of the idealization: the folded reciprocal's word is read as `16777216 / 5033165`. -/
theorem preserves : Cert.preserves_Kernel_KernelIdeal :=
  IdealRules.named_const.statement Cert.KernelIdeal.κ "inv_keep" .f32 0x40555555#32
    ((16777216 / 5033165 : ℝ) : EReal) rfl

/-- From memories agreeing on the arguments both programs end with the same result array. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2,
    Cert.ReferenceIdeal.Read.val_main_v26_eq]
  exact results_agree _ _ _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
